-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S8192 : Shape := ⟨1, ![8192]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x1 .f32) (main_arg1 : FVec F S8192 .f32) (main_arg2 : FVec F S8192 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192x1 : Shape := ⟨2, ![8192, 1]⟩
abbrev S8192 : Shape := ⟨1, ![8192]⟩
abbrev S1x8192 : Shape := ⟨2, ![1, 8192]⟩
abbrev S512x1 : Shape := ⟨2, ![512, 1]⟩
abbrev S512x128 : Shape := ⟨2, ![512, 128]⟩
abbrev S1x2048 : Shape := ⟨2, ![1, 2048]⟩
abbrev S512x2048 : Shape := ⟨2, ![512, 2048]⟩
abbrev S512x16x128 : Shape := ⟨3, ![512, 16, 128]⟩
abbrev S512 : Shape := ⟨1, ![512]⟩
abbrev S_ : Shape := ⟨0, ![]⟩

abbrev nBuf : Space → Nat
  | .hbm => 18
  | .vmem => 7
  | .smem => 0
  | _ => 0

abbrev bufTy : (tb : Table) → Fin (tcTables nBuf tb) → BufTy
  | .hbm, ⟨0, _⟩ => ⟨S8192x1, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192, .f32⟩
  | .hbm, ⟨7, _⟩ => ⟨S1x8192, .f32⟩
  | .hbm, ⟨8, _⟩ => ⟨S8192x1, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x8192, .f32⟩
  | .local _ .vmem, ⟨3, _⟩ => ⟨S1x8192, .f32⟩
  | .local _ .vmem, ⟨4, _⟩ => ⟨S512x1, .f32⟩
  | .local _ .vmem, ⟨5, _⟩ => ⟨S512x1, .f32⟩
  | .local _ .vmem, ⟨6, _⟩ => ⟨S512x128, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c2048_i32 : BitVec 32 := 2048#32
  let v6 : BitVec 32 := Scalar.muli c0_i32 c2048_i32
  v6
def k0_off1 (c0_i32 : BitVec 32) : Fin 2 → Nat :=
  let c0_3 : Index := 0#32
  let c2048_i32 : BitVec 32 := 2048#32
  let v6 : BitVec 32 := Scalar.muli c0_i32 c2048_i32
  let v7 : BitVec 32 := v6
  let v8 : Index := Scalar.indexCast v7
  ![0, v8.toNat]
def k0_mult2 : BitVec 32 :=
  let c1_i32 : BitVec 32 := 1#32
  let c2048_i32_11 : BitVec 32 := 2048#32
  let v28 : BitVec 32 := Scalar.muli c1_i32 c2048_i32_11
  v28
def k0_mult3 : BitVec 32 :=
  let c2_i32 : BitVec 32 := 2#32
  let c2048_i32_20 : BitVec 32 := 2048#32
  let v50 : BitVec 32 := Scalar.muli c2_i32 c2048_i32_20
  v50
def k0_mult4 : BitVec 32 :=
  let c3_i32 : BitVec 32 := 3#32
  let c2048_i32_29 : BitVec 32 := 2048#32
  let v72 : BitVec 32 := Scalar.muli c3_i32 c2048_i32_29
  v72
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x1_S8192 : S8192x1.ShapeCasts S8192
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S1x2048 : 0 < S1x2048.numel
  shapeCasts_S1x2048_S1x2048 : S1x2048.ShapeCasts S1x2048
  broadcasts_S1x2048_S512x2048 : S1x2048.Broadcasts S512x2048
  broadcasts_S512x1_S512x2048 : S512x1.Broadcasts S512x2048
  shapeCasts_S512x2048_S512x16x128 : S512x2048.ShapeCasts S512x16x128
  reduces_S512x16x128_S512x128 : S512x16x128.Reduces [1] S512x128
  reduces_S512x128_S512 : S512x128.Reduces [1] S512
  shapeCasts_S512_S512x1 : S512.ShapeCasts S512x1
  reducesTo_S8192_S_d0 : S8192.ReducesTo [0] S_
  h_S_ : 0 < S_.numel
  hrank0 : 0 < grid0.rank
  k0_mult1_dvd : 2048 ∣ k0_mult1.toNat
  k0_off1_inb : ∀ (r : Fin 4), ∀ a, (k0_off1 (BitVec.ofNat 32 r.val)) a + S1x2048.size a ≤ S1x8192.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

abbrev win0_0 : Pipeline.Window sig grid0 :=
  Pipeline.Window.ofSpec (Memref.whole main_v1) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S1x8192, .f32⟩
  | .hbm, ⟨5, _⟩ => ⟨S8192x1, .f32⟩
  | .hbm, ⟨6, _⟩ => ⟨S8192x8192, .f32⟩
  | .hbm, ⟨7, _⟩ => ⟨S8192x8192, .f32⟩
  | .hbm, ⟨8, _⟩ => ⟨S8192x8192, .i1⟩
  | .hbm, ⟨9, _⟩ => ⟨S8192x8192, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S8192x1_S8192 : S8192x1.ShapeCasts S8192
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  h_S_ : 0 < S_.numel
  reducesTo_S8192_S_d0 : S8192.ReducesTo [0] S_

variable [Facts₀]

class Facts : Prop extends Facts₀ where

variable [Facts]
-- ==== Proof.KernelBody.lean ====
/-
  What one grid point of the risk-sum kernel leaves in its output block, as a pure function of the three
  input blocks, at any float instance.

  The body works on a row block `ti` of 512 event times (a column [512, 1]), the whole row of event times
  and the whole row of weights (each [1, 8192]). It zeroes a [512, 128] accumulator; for each of the four
  chunks of 2048 columns it compares the chunk's times with the rows' times, keeps the chunk's weight where
  the column's time is at least the row's and zero elsewhere, folds the 2048 columns to 128 lanes by adding
  the 16 groups of 128, and adds that onto the accumulator (`step`); at the end it adds the 128 lanes of
  each row (`laneSum`). Every load and store goes through the whole scratch buffer, so each load of the
  accumulator reads exactly what the store before it wrote, and the stored block is the composition
  `laneSum (step₃ (step₂ (step₁ (step₀ zero))))` (`piece`, `body_eq`).
-/
import proofs.«136230_j65515431133625_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.RiskValue

open Cert.KernelIdeal Cert.KernelIdeal.Gen

variable {F : FTy → Type} [FloatOps F]

theorem hz : (![0, 0] : Fin 2 → Nat) = fun _ => 0 := funext fun a => by fin_cases a <;> rfl

/-- Columns `o … o + 2047` of a row `[1, 8192]`: what the body loads of a row operand for one column chunk. -/
def chunk (x : Vec F S1x8192 .f32) (o : Nat) (h : ∀ a, (![0, o] : Fin 2 → Nat) a + S1x2048.size a ≤ S1x8192.size a) :
    Vec F S1x2048 .f32 :=
  View.ld x (Rect.unit ![0, o] S1x2048.size h)

/-- The body's stored block in the payloads' own words: the accumulator zeroed, the four column chunks added
    to it one after the other, its lanes summed. -/
def body (x0 : Vec F S512x1 .f32) (x1 x2 : Vec F S1x8192 .f32) : Vec F S512x1 .f32 :=
  k0_pay2
    (k0_pay1 (k0_pay3 x0) (k0_pay10 (chunk x1 6144 (by decide))) (chunk x2 6144 (by decide))
      (k0_pay9 (k0_pay3 x0) (chunk x1 4096 (by decide)) (chunk x2 4096 (by decide))
        (k0_pay8 (k0_pay3 x0) (k0_pay6 (chunk x1 2048 (by decide))) (k0_pay7 (chunk x2 2048 (by decide)))
          (k0_pay5 x0 (chunk x1 0 (by decide)) (chunk x2 0 (by decide)) (k0_pay4 (F := F))))))

/-- What the run leaves in the output's staging buffer is that block: the one store into the output covers
    it, and each load of the accumulator reads the whole of what the last store into it wrote. -/
theorem piece (c : Dev nD) (i : grid0.Coords) (a1 : Memref sig .tc .vmem S512x1 .f32) (h1 : a1.IsWhole)
    (a2 : Memref sig .tc .vmem S1x8192 .f32) (h2 : a2.IsWhole) (a3 : Memref sig .tc .vmem S1x8192 .f32) (h3 : a3.IsWhole)
    (a4 : Memref sig .tc .vmem S512x1 .f32) (h4 : a4.IsWhole) (a5 : Memref sig .tc .vmem S512x128 .f32) (h5 : a5.IsWhole)
    (x0 : Vec F S512x1 .f32) (x1 : Vec F S1x8192 .f32) (x2 : Vec F S1x8192 .f32) :
    out0_A_3 c i a1 h1 a2 h2 a3 h3 a4 h4 a5 h5 x0 x1 x2 = body x0 x1 x2 := by
  unfold out0_A_3
  rw [View.read_writes_eq_canon _ _ _ (cover0_A_3 c i a1 h1 a2 h2 a3 h3 a4 h4 a5 h5 x0 x1 x2)]
  unfold kernelRun0_A
  dsimp only
  sl_unfold_words
  rw [View.canon_unit_zero hz]
  simp only [View.readCov_cons_toLoadRect, View.readAt_eq_ld, h1.read_unread, h2.read_unread, h3.read_unread,
    View.ld_unit_zero (S := S512x1) hz]
  rfl

/-- The zeroed accumulator. -/
def zeroAcc : FVec F S512x128 .f32 := broadcast S512x128 (Scalar.ofBits .f32 0x00000000#32)

/-- One column chunk added onto the accumulator: where the chunk's time `tj` is at least the row's time `ti`
    the chunk's weight `ej`, zero elsewhere; the 2048 columns folded to 128 lanes by adding the 16 groups. -/
def step (ti : FVec F S512x1 .f32) (tj ej : FVec F S1x2048 .f32) (acc : FVec F S512x128 .f32) : FVec F S512x128 .f32 :=
  addf acc (multiReduction .add [1] S512x128
    (shapeCast S512x16x128
      (select (cmpf .oge (broadcastTo S512x2048 tj broadcasts_S1x2048_S512x2048) (broadcastTo S512x2048 ti broadcasts_S512x1_S512x2048))
        (broadcastTo S512x2048 ej broadcasts_S1x2048_S512x2048) (broadcast S512x2048 (Scalar.ofBits .f32 0x00000000#32)))
      shapeCasts_S512x2048_S512x16x128)
    0x00000000#32 reduces_S512x16x128_S512x128 (.inl rfl) rfl)

/-- The accumulator's 128 lanes added, as a column. -/
def laneSum (acc : FVec F S512x128 .f32) : FVec F S512x1 .f32 :=
  shapeCast S512x1 (multiReduction .add [1] S512 acc 0x00000000#32 reduces_S512x128_S512 (.inl rfl) rfl) shapeCasts_S512_S512x1

/-- The stored block is the lane sum of four steps from the zeroed accumulator (the payloads' identity shape
    casts dropped). -/
theorem body_eq (x0 : Vec F S512x1 .f32) (x1 x2 : Vec F S1x8192 .f32) :
    body x0 x1 x2 = laneSum (step x0 (chunk x1 6144 (by decide)) (chunk x2 6144 (by decide))
      (step x0 (chunk x1 4096 (by decide)) (chunk x2 4096 (by decide))
        (step x0 (chunk x1 2048 (by decide)) (chunk x2 2048 (by decide))
          (step x0 (chunk x1 0 (by decide)) (chunk x2 0 (by decide)) zeroAcc)))) := by
  unfold body k0_pay2 k0_pay1 k0_pay9 k0_pay8 k0_pay5 k0_pay4 k0_pay3 k0_pay6 k0_pay7 k0_pay10 laneSum step zeroAcc
  simp only [shapeCast_self]

end Cert.KernelIdeal.RiskValue

end
-- ==== Proof.RiskSum.lean ====
/-
  The arithmetic of the risk sum, apart from any program.

  For a row with event time `ti`, a column with event time `tj` and weight `e` contributes `e` when
  `tj ≥ ti` and zero otherwise (`term`). Written with a selection this is the kernel's form; written as
  the product of `e` with the comparison's bit turned into the number 0 or 1 it is the reference's
  (`term_eq_mul`): on the extended reals `e · 1 = e` and `e · 0 = 0` for every `e`, the infinities
  included, so no finiteness is needed.

  The kernel adds the 8192 columns of a row in a particular grouping: the columns are cut into 4 chunks
  of 2048, each chunk into 16 groups of 128 lanes; per lane the 16 groups of a chunk are added, the four
  chunk sums are added one after the other onto a zero, and at the end the 128 lanes are added.
  Addition of extended reals is commutative and associative, so this is the plain sum over all 8192
  columns (`grouped_sum`), the column of chunk `c`, group `g`, lane `l` being `2048 c + 128 g + l`
  (`col`).

  `riskRow` is a row's risk sum over plain column-indexed families, `loss` the host operations that turn
  the 8192 risk sums into the scalar loss.
-/
import Idealize.ShloMosaic.PureOps.Ideal
import Idealize.ShloMosaic.PureOps.Ideal.Laws
import Idealize.ShloMosaic.Lib.ValueIdx

noncomputable section

namespace Cert.RiskSum

open Idealize.ShloMosaic

/-- One column's share of a row's risk sum: the weight `e` when the column's time `tj` is at least the
    row's time `ti`, and the value of the zero word otherwise. -/
def term (tj ti e : EReal) : EReal :=
  Scalar.select (FloatOps.cmpf (F := Ideal) (φ := .f32) .oge tj ti) e (Ideal.ofBits .f32 0x00000000#32)

/-- The same share as a product: the weight times the comparison's bit read as the number 0 or 1. -/
theorem term_eq_mul (tj ti e : EReal) :
    term tj ti e = e * FloatOps.uitofp (F := Ideal) .f32 (FloatOps.cmpf (F := Ideal) (φ := .f32) .oge tj ti) := by
  unfold term
  generalize FloatOps.cmpf (F := Ideal) (φ := .f32) .oge tj ti = b
  rcases BitVec.eq_zero_or_eq_one b with h | h <;> subst h
  · rw [ValueIdx.select_zero, Ideal.ofBits_zero_f32]
    show (0 : EReal) = e * (((0#1 : BitVec 1).toNat : ℝ) : EReal)
    simp
  · rw [ValueIdx.select_one]
    show e = e * (((1#1 : BitVec 1).toNat : ℝ) : EReal)
    simp

/-- The column that chunk `c`, group `g`, lane `l` stands for. -/
def col (c : Fin 4) (g : Fin 16) (l : Fin 128) : Fin 8192 :=
  ⟨2048 * c.val + (128 * g.val + l.val), by have := c.isLt; have := g.isLt; have := l.isLt; omega⟩

/-- Every column is the column of exactly one (chunk, group, lane). -/
def colEquiv : Fin 4 × Fin 16 × Fin 128 ≃ Fin 8192 where
  toFun x := col x.1 x.2.1 x.2.2
  invFun k := (⟨k.val / 2048, by have := k.isLt; omega⟩, ⟨k.val % 2048 / 128, by have := k.isLt; omega⟩,
    ⟨k.val % 128, by omega⟩)
  left_inv x := by
    obtain ⟨c, g, l⟩ := x
    have := c.isLt; have := g.isLt; have := l.isLt
    refine Prod.ext (Fin.ext ?_) (Prod.ext (Fin.ext ?_) (Fin.ext ?_)) <;> (simp only [col]; omega)
  right_inv k := by
    have := k.isLt
    refine Fin.ext ?_
    simp only [col]
    omega

/-- The sum over all columns is the sum over chunks, groups and lanes. -/
theorem sum_cols {M : Type*} [AddCommMonoid M] (f : Fin 8192 → M) :
    ∑ k : Fin 8192, f k = ∑ c : Fin 4, ∑ g : Fin 16, ∑ l : Fin 128, f (col c g l) := by
  rw [← Equiv.sum_comp colEquiv f, Fintype.sum_prod_type]
  refine Finset.sum_congr rfl fun c _ => ?_
  rw [Fintype.sum_prod_type]
  rfl

/-- The kernel's grouping of a row's sum: per lane the four chunk sums (each a sum over its 16 groups)
    added one after the other onto zero, then the lanes added — is the sum over all columns. -/
theorem grouped_sum {M : Type*} [AddCommMonoid M] (f : Fin 8192 → M) :
    ∑ l : Fin 128, ((((0 + ∑ g : Fin 16, f (col 0 g l)) + ∑ g : Fin 16, f (col 1 g l))
        + ∑ g : Fin 16, f (col 2 g l)) + ∑ g : Fin 16, f (col 3 g l))
      = ∑ k : Fin 8192, f k := by
  rw [sum_cols, Fin.sum_univ_four]
  simp only [zero_add, Finset.sum_add_distrib]
  rw [Finset.sum_comm (f := fun l g => f (col 0 g l)), Finset.sum_comm (f := fun l g => f (col 1 g l)),
    Finset.sum_comm (f := fun l g => f (col 2 g l)), Finset.sum_comm (f := fun l g => f (col 3 g l))]

/-- A row's risk sum: over all columns `k`, the column's weight `e k` where its time `t k` is at least the
    row's time `t r`. -/
def riskRow (t e : Fin 8192 → EReal) (r : Fin 8192) : EReal :=
  ∑ k : Fin 8192, term (t k) (t r) (e k)

abbrev S8192 : Shape := ⟨1, ![8192]⟩
abbrev S_ : Shape := ⟨0, ![]⟩

/-- The loss from the risk sums, the host operations both programs end with: the negated mean over the
    rows of `(θ − log risk) · censor`. Both programs apply it to the same `θ` and `censor`; it is carried
    as one function and never opened. -/
def loss (θ risk cens : FVec Ideal S8192 .f32) (h : S8192.ReducesTo [0] S_) (h0 : 0 < S_.numel) : FVec Ideal S_ .f32 :=
  Host.negf (F := Ideal) (Host.divf (F := Ideal)
    (Host.reduceAdd (F := Ideal) (mulf (subf θ (Host.log (F := Ideal) risk)) cens) (constant (F := Ideal) S_ .f32 0x00000000#32) h h0)
    (constant (F := Ideal) S_ .f32 0x46000000#32))

end Cert.RiskSum

end
-- ==== Proof.KernelRow.lean ====
/-
  One grid point's output block read at a row, on the extended reals.

  Row `p` of the block is the sum over all 8192 columns `k` of the column's share
  `term (t k) (ti p) (e k)`: a chunk step adds, at lane `l`, the shares of the chunk's 16 columns
  `128 g + l` (`step_apply`: the fold [512, 2048] → [512, 16, 128] keeps row-major order, so group `g`,
  lane `l` is column `128 g + l` of the chunk); the lane sum adds the 128 lanes (`laneSum_apply`); and the
  grouping chunk / group / lane is a re-arrangement of the plain sum over the columns
  (`RiskSum.grouped_sum`).
-/
import proofs.«136230_j65515431133625_2_alg».proof.Proof.KernelBody
import proofs.«136230_j65515431133625_2_alg».proof.Proof.RiskSum
import Idealize.ShloMosaic.PureOps.Ideal.Laws
import Idealize.ShloMosaic.Lib.ValueIdx
import Idealize.ShloMosaic.Lib.ValueLayout

set_option maxRecDepth 16384

noncomputable section

open Idealize.ShloMosaic Idealize.ShloMosaic.ValueIdx

namespace Cert.KernelIdeal.RiskValue

open Cert.KernelIdeal Cert.KernelIdeal.Gen Cert.RiskSum

/-- Column `128 g + l` of a chunk. -/
def lane (g : Fin 16) (l : Fin 128) : Fin 2048 := ⟨128 * g.val + l.val, by have := g.isLt; have := l.isLt; omega⟩

/-- A chunk of a row read at a column: the row at the chunk's offset plus the column. -/
theorem chunk_apply (x : FVec Ideal S1x8192 .f32) (o : Nat) (h : ∀ a, (![0, o] : Fin 2 → Nat) a + S1x2048.size a ≤ S1x8192.size a)
    (q : Fin 2048) (ho : o + q.val < 8192) :
    chunk (F := Ideal) x o h (ix2 (0 : Fin 1) q) = x (ix2 (0 : Fin 1) (⟨o + q.val, ho⟩ : Fin 8192)) := by
  unfold chunk
  show x _ = x _
  refine congrArg x (funext fun a => Fin.ext ?_)
  match a with
  | ⟨0, _⟩ => rfl
  | ⟨1, _⟩ => show o + 1 * q.val = o + q.val; omega

/-- The zeroed accumulator holds the zero word's value. -/
theorem zeroAcc_apply (p : Fin 512) (l : Fin 128) : zeroAcc (F := Ideal) (ix2 p l) = 0 :=
  Ideal.ofBits_zero_f32

/-- A chunk step at row `p`, lane `l`: the accumulator plus the shares of the chunk's columns `128 g + l`. -/
theorem step_apply (ti : FVec Ideal S512x1 .f32) (tj ej : FVec Ideal S1x2048 .f32) (acc : FVec Ideal S512x128 .f32)
    (p : Fin 512) (l : Fin 128) :
    step ti tj ej acc (ix2 p l)
      = acc (ix2 p l) + ∑ g : Fin 16, term (tj (ix2 (0 : Fin 1) (lane g l))) (ti (ix2 p (0 : Fin 1))) (ej (ix2 (0 : Fin 1) (lane g l))) := by
  unfold step
  refine congrArg (acc (ix2 p l) + ·) ?_
  refine (Ideal.multiReduction_add_single _ 0x00000000#32 reduces_S512x16x128_S512x128 (.inl rfl) rfl (ix2 p l)).trans ?_
  refine Finset.sum_congr rfl fun g _ => ?_
  refine (shapeCast_apply _ shapeCasts_S512x2048_S512x16x128 _ (ix2 p (lane g l)) ?_).trans ?_
  · rw [Shape.rowMajor_val_two, Shape.rowMajor_val_three]
    show p.val * 2048 + (128 * g.val + l.val) = (p.val * 16 + g.val) * 128 + l.val
    omega
  · rw [select_apply, cmpf_apply, broadcast_apply, broadcastTo_1b_ab_apply, broadcastTo_1b_ab_apply]
    have e : broadcastTo S512x2048 ti broadcasts_S512x1_S512x2048 (ix2 p (lane g l)) = ti (ix2 p (0 : Fin 1)) :=
      broadcastTo_apply ti broadcasts_S512x1_S512x2048 (ix2 p (lane g l)) (ix2 p (0 : Fin 1)) fun a =>
        match a with
        | ⟨0, _⟩ => by show p.val = if (512 : Nat) = 1 then 0 else p.val; rw [if_neg (by decide)]
        | ⟨1, _⟩ => by show 0 = if (1 : Nat) = 1 then 0 else _; rw [if_pos rfl]
    rw [e]
    rfl

/-- The lane sum at row `p`: the accumulator's 128 lanes of that row added. -/
theorem laneSum_apply (acc : FVec Ideal S512x128 .f32) (p : Fin 512) :
    laneSum acc (ix2 p (0 : Fin 1)) = ∑ l : Fin 128, acc (ix2 p l) := by
  unfold laneSum
  refine (shapeCast_apply _ shapeCasts_S512_S512x1 _ (ix1 p) ?_).trans ?_
  · rw [Shape.rowMajor_val_one, Shape.rowMajor_val_two]
    show p.val = p.val * 1 + 0
    omega
  refine (Ideal.multiReduction_add_single acc 0x00000000#32 reduces_S512x128_S512 (.inl rfl) rfl (ix1 p)).trans ?_
  refine Finset.sum_congr rfl fun l _ => ?_
  exact congrArg acc (funext fun a => Fin.ext (by match a with | ⟨0, _⟩ => rfl | ⟨1, _⟩ => rfl))

/-- Column `128 g + l` of the chunk at offset `2048 c` is the row's column `col c g l`. -/
theorem chunk_col (x : FVec Ideal S1x8192 .f32) (o : Nat) (c : Fin 4) (ho : o = 2048 * c.val)
    (h : ∀ a, (![0, o] : Fin 2 → Nat) a + S1x2048.size a ≤ S1x8192.size a) (g : Fin 16) (l : Fin 128) :
    chunk (F := Ideal) x o h (ix2 (0 : Fin 1) (lane g l)) = x (ix2 (0 : Fin 1) (col c g l)) := by
  subst ho
  exact chunk_apply x _ h (lane g l) (by have := g.isLt; have := l.isLt; have := c.isLt; simp only [lane]; omega)

/-- Row `p` of the block one grid point stores: the sum over all 8192 columns of the column's share, the
    row's time taken from the point's block of times, the columns' times and weights from the two whole rows. -/
theorem body_apply (x0 : FVec Ideal S512x1 .f32) (x1 x2 : FVec Ideal S1x8192 .f32) (p : Fin 512) :
    body (F := Ideal) x0 x1 x2 (ix2 p (0 : Fin 1))
      = ∑ k : Fin 8192, term (x1 (ix2 (0 : Fin 1) k)) (x0 (ix2 p (0 : Fin 1))) (x2 (ix2 (0 : Fin 1) k)) := by
  rw [body_eq, laneSum_apply]
  simp only [step_apply, zeroAcc_apply]
  rw [← grouped_sum (fun k => term (x1 (ix2 (0 : Fin 1) k)) (x0 (ix2 p (0 : Fin 1))) (x2 (ix2 (0 : Fin 1) k)))]
  simp only [chunk_col x1 0 0 rfl, chunk_col x2 0 0 rfl, chunk_col x1 2048 1 rfl, chunk_col x2 2048 1 rfl,
    chunk_col x1 4096 2 rfl, chunk_col x2 4096 2 rfl, chunk_col x1 6144 3 rfl, chunk_col x2 6144 3 rfl]

end Cert.KernelIdeal.RiskValue

end
-- ==== Proof.KernelValue.lean ====
/-
  The risk-sum kernel's program on the extended reals: what its result holds after every run.

  The pallas_call's output array [8192, 1] ends holding, at row `r`, the risk sum of row `r` over the
  argument arrays (`riskCol`, `final`): grid point `t` stores rows `512 t … 512 t + 511`, reading the rows'
  times from its block of the time column and the columns' times and weights from the two whole rows
  (`flushed_eq`, over `body_apply`), and the sixteen blocks tile the array. The arrays the region finds are
  the host operations before it applied to the arguments: the times reshaped to a column and to a row, and
  the row of `exp θ`. The host operations after the region turn the column of risk sums into the loss
  (`tail_eq`), so the program's result is `loss θ risk censor` (`run`).
-/
import proofs.«136230_j65515431133625_2_alg».proof.Proof.KernelRow
import Idealize.ShloMosaic.Lib.StableHlo.Run
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RiskValue

open Cert.KernelIdeal Cert.KernelIdeal.Gen Cert.RiskSum

variable (m : (ℓ : Loc nD τ sig) → Buf (Elt Ideal) ℓ) (ρ : Dev nD → PrngReg)

/-- The argument arrays as plain families of extended reals: the hazards [8192, 1], the event times [8192]
    and the censoring indicators [8192]. -/
abbrev hazard (c : Dev nD) : S8192x1.Idx → EReal := m ((c : Thread nD τ).loc main_arg0)
abbrev evtime (c : Dev nD) : S8192.Idx → EReal := m ((c : Thread nD τ).loc main_arg1)
abbrev censor (c : Dev nD) : S8192.Idx → EReal := m ((c : Thread nD τ).loc main_arg2)

/-! ## The arrays the region finds -/

theorem V_v0 (c : Dev nD) : (V m c main_v0 : S8192.Idx → EReal)
    = shapeCast S8192 (hazard m c) shapeCasts_S8192x1_S8192 := by
  show StableHlo.after hostOps0 (fun b => m (c, b)) (Proc.devRef .tc main_v0) = _
  after_results
  rfl

theorem V_v1 (c : Dev nD) : (V m c main_v1 : S8192x1.Idx → EReal)
    = shapeCast S8192x1 (evtime m c) shapeCasts_S8192_S8192x1 := by
  show StableHlo.after hostOps0 (fun b => m (c, b)) (Proc.devRef .tc main_v1) = _
  after_results
  rfl

theorem V_v2 (c : Dev nD) : (V m c main_v2 : S1x8192.Idx → EReal)
    = shapeCast S1x8192 (evtime m c) shapeCasts_S8192_S1x8192 := by
  show StableHlo.after hostOps0 (fun b => m (c, b)) (Proc.devRef .tc main_v2) = _
  after_results
  rfl

theorem V_v4 (c : Dev nD) : (V m c main_v4 : S1x8192.Idx → EReal)
    = shapeCast S1x8192 (Host.exp (F := Ideal) (φ := .f32) (shapeCast S8192 (hazard m c) shapeCasts_S8192x1_S8192))
        shapeCasts_S8192_S1x8192 := by
  show StableHlo.after hostOps0 (fun b => m (c, b)) (Proc.devRef .tc main_v4) = _
  after_results
  rfl

/-- The time column at row `r` is the time vector at `r`. -/
theorem v1_apply (c : Dev nD) (r : Fin 8192) :
    (V m c main_v1 : S8192x1.Idx → EReal) (ix2 r (0 : Fin 1)) = evtime m c (ix1 r) := by
  rw [V_v1]
  refine shapeCast_apply _ shapeCasts_S8192_S8192x1 _ (ix1 r) ?_
  rw [Shape.rowMajor_val_one, Shape.rowMajor_val_two]
  show r.val = r.val * 1 + 0
  omega

/-- The time row at column `k` is the time vector at `k`. -/
theorem v2_apply (c : Dev nD) (k : Fin 8192) :
    (V m c main_v2 : S1x8192.Idx → EReal) (ix2 (0 : Fin 1) k) = evtime m c (ix1 k) := by
  rw [V_v2]
  exact shapeCast_a_1a_apply _ shapeCasts_S8192_S1x8192 (0 : Fin 1) k

/-- The weight row at column `k` is `exp` of the hazard column at row `k`. -/
theorem v4_apply (c : Dev nD) (k : Fin 8192) :
    (V m c main_v4 : S1x8192.Idx → EReal) (ix2 (0 : Fin 1) k)
      = FloatOps.hostUnary (F := Ideal) (φ := .f32) .exp (hazard m c (ix2 k (0 : Fin 1))) := by
  rw [V_v4]
  refine (shapeCast_a_1a_apply _ shapeCasts_S8192_S1x8192 (0 : Fin 1) k).trans ?_
  show FloatOps.hostUnary (F := Ideal) (φ := .f32) .exp (shapeCast S8192 (hazard m c) shapeCasts_S8192x1_S8192 (ix1 k)) = _
  refine congrArg _ (shapeCast_apply _ shapeCasts_S8192x1_S8192 _ (ix2 k (0 : Fin 1)) ?_)
  rw [Shape.rowMajor_val_one, Shape.rowMajor_val_two]
  show k.val * 1 + 0 = k.val
  omega

/-! ## The output array after the run -/

/-- The times and the weights as column-indexed families of the argument arrays. -/
def times (c : Dev nD) : Fin 8192 → EReal := fun k => evtime m c (ix1 k)
def weights (c : Dev nD) : Fin 8192 → EReal :=
  fun k => FloatOps.hostUnary (F := Ideal) (φ := .f32) .exp (hazard m c (ix2 k (0 : Fin 1)))

/-- What the pallas_call's output array ends holding: at row `r` the risk sum of row `r`. -/
def riskCol (c : Dev nD) : S8192x1.Idx → EReal :=
  fun i => riskRow (times m c) (weights m c) ⟨(i 0).val, idx2_lt0 i⟩

/-- The printed index maps over the grid: the time column's and the output's block is the point's, the two
    whole rows' is block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of the time column at its row `p` is the time column at row `512 t + p`. -/
theorem iblk0_apply (c : Dev nD) (t : Fin cfg0.N) (p : Fin 512) (h : 512 * t.val + p.val < 8192) :
    iblk m c 0 t (ix2 p (0 : Fin 1)) = (V m c main_v1 : S8192x1.Idx → EReal) (ix2 (⟨512 * t.val + p.val, h⟩ : Fin 8192) (0 : Fin 1)) := by
  obtain ⟨e00, e01, -⟩ := idx_facts t
  show V m c main_v1 (((cfg0.win 0).blk t).view.emb (ix2 p (0 : Fin 1))) = _
  refine congrArg (V m c main_v1) (funext fun a => Fin.ext ?_)
  match a with
  | ⟨0, _⟩ => show win0_0.index t (0 : Fin 2) * 512 + 1 * p.val = 512 * t.val + p.val; rw [e00]; omega
  | ⟨1, _⟩ => show win0_0.index t (1 : Fin 2) * 1 + 1 * 0 = 0; rw [e01]

/-- Every point's block of the time row is the whole row; -/
theorem iblk1_apply (c : Dev nD) (t : Fin cfg0.N) (k : Fin 8192) :
    iblk m c 1 t (ix2 (0 : Fin 1) k) = (V m c main_v2 : S1x8192.Idx → EReal) (ix2 (0 : Fin 1) k) := by
  obtain ⟨-, -, e10, e11, -⟩ := idx_facts t
  show V m c main_v2 (((cfg0.win 1).blk t).view.emb (ix2 (0 : Fin 1) k)) = _
  refine congrArg (V m c main_v2) (funext fun a => Fin.ext ?_)
  match a with
  | ⟨0, _⟩ => show win0_1.index t (0 : Fin 2) * 1 + 1 * 0 = 0; rw [e10]
  | ⟨1, _⟩ => show win0_1.index t (1 : Fin 2) * 8192 + 1 * k.val = k.val; rw [e11]; omega

/-- and of the weight row likewise. -/
theorem iblk2_apply (c : Dev nD) (t : Fin cfg0.N) (k : Fin 8192) :
    iblk m c 2 t (ix2 (0 : Fin 1) k) = (V m c main_v4 : S1x8192.Idx → EReal) (ix2 (0 : Fin 1) k) := by
  obtain ⟨-, -, -, -, e20, e21, -⟩ := idx_facts t
  show V m c main_v4 (((cfg0.win 2).blk t).view.emb (ix2 (0 : Fin 1) k)) = _
  refine congrArg (V m c main_v4) (funext fun a => Fin.ext ?_)
  match a with
  | ⟨0, _⟩ => show win0_2.index t (0 : Fin 2) * 1 + 1 * 0 = 0; rw [e20]
  | ⟨1, _⟩ => show win0_2.index t (1 : Fin 2) * 8192 + 1 * k.val = k.val; rw [e21]; omega

/-- What point `t` writes back is block `t` of the column of risk sums. -/
theorem flushed_eq (c : Dev nD) (t : Fin cfg0.N) :
    (dats m 0 c).flushed 3 t = ((cfg0.win 3).blk t).view.read (Elt Ideal) (riskCol m c) := by
  show (cfg0.win 3).cut (grid0.coords t) ((dats m 0 c).after 3 t) = _
  rw [after0_3]
  unfold outsAt0
  rw [piece]
  have hN : cfg0.N = 16 := N_0
  have ht : t.val < 16 := hN ▸ t.isLt
  obtain ⟨-, -, -, -, -, -, e30, e31⟩ := idx_facts t
  funext j
  obtain ⟨p, q, rfl⟩ : ∃ (p : Fin 512) (q : Fin 1), j = ix2 p q := ⟨j 0, j 1, eq_ix2 j⟩
  obtain rfl : q = 0 := Subsingleton.elim _ _
  have hp : 512 * t.val + p.val < 8192 := by have := p.isLt; omega
  show body (F := Ideal) (iblk m c 0 t) (iblk m c 1 t) (iblk m c 2 t) (ix2 p (0 : Fin 1))
    = riskCol m c (((cfg0.win 3).blk t).view.emb (ix2 p (0 : Fin 1)))
  refine (body_apply (iblk m c 0 t) (iblk m c 1 t) (iblk m c 2 t) p).trans ?_
  have hr : (⟨((((cfg0.win 3).blk t).view.emb (ix2 p (0 : Fin 1))) 0).val, idx2_lt0 _⟩ : Fin 8192) = ⟨512 * t.val + p.val, hp⟩ :=
    Fin.ext (by show win0_3.index t (0 : Fin 2) * 512 + 1 * p.val = 512 * t.val + p.val; rw [e30]; omega)
  unfold riskCol riskRow
  rw [hr]
  refine Finset.sum_congr rfl fun k _ => ?_
  rw [iblk0_apply m c t p hp, iblk1_apply, iblk2_apply, v1_apply, v2_apply, v4_apply]
  rfl

/-- An index of the array is in point `t`'s block iff each coordinate is in the block's range on its axis. -/
theorem mem_blk (t : Fin cfg0.N) (i : S8192x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v5).slice (win0_3.rect t)).set ↔ _
  rw [View.set_slice_whole, Rect.mem_set_unit]
  exact Iff.rfl

/-- The sixteen blocks of 512 rows tile the column, so after the run it holds the risk sums. -/
theorem final (c : Dev nD) : (dats m 0 c).arrAt 3 cfg0.N = riskCol m c :=
  (dats m 0 c).arrAt_eq_of_cover 3 (riskCol m c) (fun t _ => flushed_eq m c t) fun i => by
    have hN : cfg0.N = 16 := N_0
    have hi0 : (i 0).val < 8192 := (i 0).isLt
    have hi1 : (i 1).val < 1 := (i 1).isLt
    refine ⟨⟨(i 0).val / 512, by omega⟩, flush0_3 _, ?_⟩
    obtain ⟨-, -, -, -, -, -, e30, e31⟩ := idx_facts ⟨(i 0).val / 512, by omega⟩
    rw [mem_blk]
    intro a
    match a with
    | ⟨0, _⟩ =>
      show win0_3.index _ (0 : Fin 2) * 512 ≤ (i 0).val ∧ (i 0).val < win0_3.index _ (0 : Fin 2) * 512 + 512
      rw [e30]; dsimp only; omega
    | ⟨1, _⟩ =>
      show win0_3.index _ (1 : Fin 2) * 1 ≤ (i 1).val ∧ (i 1).val < win0_3.index _ (1 : Fin 2) * 1 + 1
      rw [e31]; omega

/-! ## The host operations after the region, and the run -/

/-- The program's result: the loss of the reshaped hazards, the column of risk sums as a vector, and the
    censoring vector. -/
def result (c : Dev nD) : S_.Idx → EReal :=
  loss (shapeCast S8192 (hazard m c) shapeCasts_S8192x1_S8192)
    (shapeCast S8192 (riskCol m c) shapeCasts_S8192x1_S8192) (censor m c) reducesTo_S8192_S_d0 h_S_

/-- The lines after the region, applied to the region's output and to the buffers it left alone. -/
theorem tail_eq (c : Dev nD) :
    (Pipeline.afterTail₀ cfgs (dats m) 0 (V0 m) [hostOps1] c main_v12 : S_.Idx → EReal) = result m c := by
  unfold Pipeline.afterTail₀
  show StableHlo.after hostOps1 _ (Proc.devRef .tc main_v12) = _
  after_results
  have e5 : (Pipeline.withArrays (cfgs 0).spec c (V0 m c) (fun w => (dats m 0 c).arrAt w (cfgs 0).N) (Proc.devRef .tc main_v5) : S8192x1.Idx → EReal)
      = riskCol m c := (Pipeline.withArrays_arr spec0 launch0.win.arr_inj c _ _ 3).trans (final m c)
  have e0 : (Pipeline.withArrays (cfgs 0).spec c (V0 m c) (fun w => (dats m 0 c).arrAt w (cfgs 0).N) (Proc.devRef .tc main_v0) : S8192.Idx → EReal)
      = shapeCast S8192 (hazard m c) shapeCasts_S8192x1_S8192 :=
    (Pipeline.withArrays_of_ne _ c (V0 m c) _ main_v0 (by exact (by decide : ∀ w, Pipeline.arrRef spec0 w ≠ main_v0))).trans (V_v0 m c)
  have e2 : (Pipeline.withArrays (cfgs 0).spec c (V0 m c) (fun w => (dats m 0 c).arrAt w (cfgs 0).N) (Proc.devRef .tc main_arg2) : S8192.Idx → EReal)
      = censor m c :=
    (Pipeline.withArrays_of_ne _ c (V0 m c) _ main_arg2 (by exact (by decide : ∀ w, Pipeline.arrRef spec0 w ≠ main_arg2))).trans (V_main_arg2 m c)
  rw [e5, e0, e2]
  rfl

/-- Every run ends with the result at `result` and the arguments as they were. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RiskValue

end
-- ==== Proof.RefValue.lean ====
/-
  The reference on the extended reals: its result is the loss of its own risk sums, and its risk sum of
  row `r` is `riskRow` of the times and of `exp` of the hazards.

  The reference builds the [8192, 8192] table whose entry (r, k) is `exp θ_k` times the bit `t_k ≥ t_r`
  turned into the number 0 or 1, and adds each row from zero. Read at an index (the generated reading
  lemmas, one operation at a time) entry (r, k) is `exp θ_k · [t_k ≥ t_r]`, which is the share
  `term t_k t_r (exp θ_k)` (`RiskSum.term_eq_mul`).
-/
import proofs.«136230_j65515431133625_2_alg».proof.Proof.Gen.ReferenceIdeal.Read
import proofs.«136230_j65515431133625_2_alg».proof.Proof.RiskSum
import Idealize.ShloMosaic.PureOps.Ideal.Laws
import Idealize.ShloMosaic.Lib.ValueIdx

set_option maxRecDepth 16384

noncomputable section

open Idealize.ShloMosaic Idealize.ShloMosaic.ValueIdx

namespace Cert.ReferenceIdeal.RefValue

open Cert.ReferenceIdeal Cert.ReferenceIdeal.Gen Cert.ReferenceIdeal.Read Cert.RiskSum

/-- The reference's risk sum of row `r`. -/
theorem risk_apply (x0 : S8192x1.Idx → EReal) (x1 : S8192.Idx → EReal) (r : Fin 8192) :
    val_main_v11 (F := Ideal) x0 x1 (ix1 r)
      = riskRow (fun k => x1 (ix1 k)) (fun k => FloatOps.hostUnary (F := Ideal) (φ := .f32) .exp (x0 (ix2 k (0 : Fin 1)))) r := by
  rw [val_main_v11_apply, val_main_cst_apply]
  unfold riskRow
  show Ideal.ofBits .f32 0x00000000#32 + _ = _
  rw [Ideal.ofBits_zero_f32, zero_add]
  refine Finset.sum_congr rfl fun k _ => ?_
  rw [term_eq_mul, val_main_v10_apply, val_main_v9_apply, val_main_v8_apply, val_main_v7_apply, val_main_v0_apply,
    val_main_v6_apply, val_main_v5_apply, val_main_v3_apply, val_main_v1_apply, val_main_v4_apply, val_main_v2_apply]
  have h0 : idx_main_v0 (idx_main_v8 (idx_main_v9 (idx_main_v11 (ix1 r) k))) = ix2 k (0 : Fin 1) :=
    funext fun a => Fin.ext (by match a with | ⟨0, _⟩ => exact Nat.div_one _ | ⟨1, _⟩ => rfl)
  have h1 : idx_main_v1 (idx_main_v3 (idx_main_v11 (ix1 r) k)) = ix1 k :=
    funext fun a => Fin.ext (by match a with | ⟨0, _⟩ => rfl)
  have h2 : idx_main_v2 (idx_main_v4 (idx_main_v11 (ix1 r) k)) = ix1 r :=
    funext fun a => Fin.ext (by match a with | ⟨0, _⟩ => rfl)
  rw [h0, h1, h2]
  rfl

/-- The reference's result is the loss of the reshaped hazards, its risk sums and the censoring vector. -/
theorem result_eq (x0 : S8192x1.Idx → EReal) (x1 x2 : S8192.Idx → EReal) :
    val_main_v17 (F := Ideal) x0 x1 x2
      = loss (shapeCast S8192 x0 shapeCasts_S8192x1_S8192) (val_main_v11 (F := Ideal) x0 x1) x2 reducesTo_S8192_S_d0 h_S_ := rfl

end Cert.ReferenceIdeal.RefValue

end
-- ==== Proof.lean ====
/-
  The Cox partial-likelihood loss: a kernel that computes the risk sums by a pairwise comparison in
  column chunks, against the plain jnp reference — equal on the extended reals.

  Both programs compute, for each of the 8192 rows `r`, the risk sum `Σ_k [t_k ≥ t_r] · exp θ_k` over all
  columns `k`, and from the risk sums the loss `−mean((θ − log risk) · censor)` by the same host
  operations. They differ only in how a row's sum is formed: the reference multiplies `exp θ_k` by the
  comparison's bit as a number and adds the 8192 products from zero; the kernel selects `exp θ_k` or zero
  and adds the columns in chunks of 2048, folded to 128 lanes, onto a zeroed accumulator, then adds the
  lanes. On the extended reals `x · 1 = x` and `x · 0 = 0` for every `x` and addition is commutative and
  associative, so the two sums agree for all inputs (`RiskSum.term_eq_mul`, `RiskSum.grouped_sum`); the
  precondition is not used.

  The kernel's run and the array it leaves are in Proof/KernelValue.lean (over Proof/KernelBody.lean and
  Proof/KernelRow.lean), the reference's risk sums in Proof/RefValue.lean; here the two results are joined
  (`result_eq`) and the claims assembled. The idealized kernel is the kernel's own text read on the extended
  reals (no operation was rewritten), so the preservation claim is `True`.
-/
import proofs.«136230_j65515431133625_2_alg».proof.Defs
import proofs.«136230_j65515431133625_2_alg».proof.Proof.Gen.Kernel
import proofs.«136230_j65515431133625_2_alg».proof.Proof.Gen.Kernel.Skeleton
import proofs.«136230_j65515431133625_2_alg».proof.Proof.Gen.Kernel.Launch
import proofs.«136230_j65515431133625_2_alg».proof.Proof.Gen.Kernel.Points
import proofs.«136230_j65515431133625_2_alg».proof.Proof.Gen.Kernel.Frame
import proofs.«136230_j65515431133625_2_alg».proof.Proof.Gen.KernelIdeal
import proofs.«136230_j65515431133625_2_alg».proof.Proof.Gen.KernelIdeal.Skeleton
import proofs.«136230_j65515431133625_2_alg».proof.Proof.Gen.KernelIdeal.Launch
import proofs.«136230_j65515431133625_2_alg».proof.Proof.Gen.KernelIdeal.Points
import proofs.«136230_j65515431133625_2_alg».proof.Proof.Gen.KernelIdeal.Frame
import proofs.«136230_j65515431133625_2_alg».proof.Proof.Gen.ReferenceIdeal
import proofs.«136230_j65515431133625_2_alg».proof.Proof.Gen.Pre_finite_inputs
import proofs.«136230_j65515431133625_2_alg».proof.Proof.Gen.ReferenceIdeal.Read
import proofs.«136230_j65515431133625_2_alg».proof.Proof.KernelValue
import proofs.«136230_j65515431133625_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel's column of risk sums, reshaped to a vector, is the reference's vector of risk sums of the
    same arguments: at row `r` both are `riskRow` of the times and of `exp` of the hazards. -/
theorem risk_eq (m : (ℓ : Loc Cert.KernelIdeal.nD Cert.KernelIdeal.τ Cert.KernelIdeal.sig) → Buf (Elt Ideal) ℓ)
    (c : Dev Cert.KernelIdeal.nD) :
    Cert.ReferenceIdeal.Read.val_main_v11 (F := Ideal) (Cert.KernelIdeal.RiskValue.hazard m c) (Cert.KernelIdeal.RiskValue.evtime m c)
      = shapeCast Cert.KernelIdeal.S8192 (Cert.KernelIdeal.RiskValue.riskCol m c) Cert.KernelIdeal.Gen.shapeCasts_S8192x1_S8192 := by
  funext i
  obtain ⟨r, rfl⟩ : ∃ r : Fin 8192, i = ix1 r := ⟨i 0, eq_ix1 i⟩
  rw [Cert.ReferenceIdeal.RefValue.risk_apply]
  refine Eq.symm ((shapeCast_apply _ Cert.KernelIdeal.Gen.shapeCasts_S8192x1_S8192 (ix1 r) (ix2 r (0 : Fin 1)) ?_).trans ?_)
  · rw [Shape.rowMajor_val_one, Shape.rowMajor_val_two]
    show r.val * 1 + 0 = r.val
    omega
  · rfl

/-- So the two programs' results are one: the same loss of the same hazards, risk sums and censoring. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v17 (F := Ideal) (Cert.KernelIdeal.RiskValue.hazard m c) (Cert.KernelIdeal.RiskValue.evtime m c)
        (Cert.KernelIdeal.RiskValue.censor m c)
      = Cert.KernelIdeal.RiskValue.result m c := by
  rw [Cert.ReferenceIdeal.RefValue.result_eq, risk_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end, with the same loss. -/
theorem algebraic : Cert.algebraic_KernelIdeal_ReferenceIdeal := by
  intro m ρ m' ρ' _ hagree
  refine ⟨fun c => Cert.KernelIdeal.RiskValue.result m c, Cert.KernelIdeal.RiskValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v17_eq _ _ _).trans (result_eq m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
